-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S32768x64 : Shape := ⟨2, ![32768, 64]⟩
abbrev S512x4096 : Shape := ⟨2, ![512, 4096]⟩
abbrev S512x64 : Shape := ⟨2, ![512, 64]⟩

abbrev nBuf : Space → Nat
  | .hbm => 3
  | .vmem => 4
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S32768x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  h_S512x64 : 0 < S512x64.numel
  dot_S512x4096_S64x4096_S512x64_1_1_0_0_n_n_wf : DotDims.WF S512x4096 S64x4096 S512x64 [1] [1] [0] [0] [] []
  hrank0 : 0 < grid0.rank
  k0_off1_inb : ∀ i : grid0.Coords, ∀ a, (k0_off1 i) a + S512x64.size a ≤ S32768x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32768x64.size a ≤ S32768x64.size a
  hwx0_2 : ∀ i : grid0.Coords, EltTy.bits .f32 = 32 ∨ (Rect.block (s := S32768x64) S32768x64.size (cc0_transform_2 i) (hinb0_2 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32768x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x4096_S4096x64_1_0 : S64x4096.Transposes [1, 0] S4096x64
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.BitsRows.lean ====
/-
  ONE STEP OF THE KERNEL ON THE RESIDENT RESULT BUFFER, for any reading of the floats. At grid coordinate `i` the body
  loads the `[512, 4096]` block of `x` and the whole `[64, 4096]` gate matrix, multiplies them on the matrix unit
  contracting the model axis, and stores the `[512, 64]` product into rows `[512·i, 512·i + 512)` of the `[32768, 64]`
  result buffer; no other row is touched. The buffer is thus only partly overwritten at each point, and what it holds
  after a point depends on what it held before: the proof data constrain the result window by a RELATION between the
  contents found and the contents left (`rowsStep`), name the two input windows exactly (each still at its block), and
  the pipeline's run is taken for data of that form. Read off the run here: the frame — the argument arrays are never
  written back, so they end as launched.
-/
import proofs.«119178_g21586505629958_cont_sun_c4_254_20_alg».proof.Proof.Gen.Kernel.Frame
import proofs.«119178_g21586505629958_cont_sun_c4_254_20_alg».proof.Proof.Gen.Kernel.Skeleton
import Idealize.ShloMosaic.Lib.WritesUnit
import Idealize.ShloMosaic.Lib.WholeRead
import Idealize.ShloMosaic.Lib.Pipeline.Value

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a load of a whole block are zero on both axes. -/
theorem zero_offsets : (![0, 0] : Fin 2 → ℕ) = fun _ => 0 := by
  funext a; match a with
  | ⟨0, _⟩ => rfl
  | ⟨1, _⟩ => rfl

/-- A load of the whole first staging buffer, held at the raw contents that read `x0`, reads `x0`. -/
theorem load_x (arg1 : Memref sig .tc .vmem S512x4096 .f32) (harg1 : arg1.IsWhole) (x0 : Vec F S512x4096 .f32) :
    View.readAt (Elt F) arg1.view (Rect.unit (s := S512x4096) ![0, 0] S512x4096.size inb_S512x4096_S512x4096_0_0).toLoadRect (harg1.unread x0) = x0 := by
  rw [View.readAt_eq_ld, harg1.read_unread, View.ld_unit_zero (S := S512x4096) zero_offsets]

/-- A load of the whole second staging buffer, held at the raw contents that read `x1`, reads `x1`. -/
theorem load_w (arg2 : Memref sig .tc .vmem S64x4096 .f32) (harg2 : arg2.IsWhole) (x1 : Vec F S64x4096 .f32) :
    View.readAt (Elt F) arg2.view (Rect.unit (s := S64x4096) ![0, 0] S64x4096.size inb_S64x4096_S64x4096_0_0).toLoadRect (harg2.unread x1) = x1 := by
  rw [View.readAt_eq_ld, harg2.read_unread, View.ld_unit_zero (S := S64x4096) zero_offsets]

/-- The one store of the body as a piece: rows `[512·i, 512·i + 512)` of the resident result buffer receive the
    product of the point's block of `x` with the whole gate matrix. -/
abbrev storePiece (i : grid0.Coords) (x0 : Vec F S512x4096 .f32) (x1 : Vec F S64x4096 .f32) : View.Piece (Elt F) S32768x64 .f32 :=
  ⟨Rect.unit (s := S32768x64) (k0_off1 i) S512x64.size (k0_off1_inb i), k0_pay1 x0 x1⟩

set_option maxHeartbeats 1000000 in
/-- The body on whole staging memrefs: the two inputs at their contents and the result buffer at contents `y` run to
    the inputs as they were and the result buffer at `y` with the one piece written over it. -/
theorem bodyRun (c : Dev nD) (i : grid0.Coords) (arg1 : Memref sig .tc .vmem S512x4096 .f32) (harg1 : arg1.IsWhole)
    (arg2 : Memref sig .tc .vmem S64x4096 .f32) (harg2 : arg2.IsWhole) (arg3 : Memref sig .tc .vmem S32768x64 .f32) (harg3 : arg3.IsWhole)
    (x0 : Vec F S512x4096 .f32) (x1 : Vec F S64x4096 .f32) (y : Vec F S32768x64 .f32) :
      ∀ (E : Set ℕ) (K : PUnit → sProp 𝕄),
        iprop(owns (c : Thread nD τ) arg1 fullShare x0 ∗ owns (c : Thread nD τ) arg2 fullShare x1 ∗ owns (c : Thread nD τ) arg3 fullShare y
            ∗ (iprop(owns (c : Thread nD τ) arg1 fullShare x0 ∗ owns (c : Thread nD τ) arg2 fullShare x1
                ∗ (arg3.view.loc (c : Thread nD τ) ↦[arg3.view.set]{fullShare} arg3.view.writes (Elt F) (harg3.unread y) [storePiece i x0 x1])) -∗ K ⟨⟩))
          ⊢ wp frame (wpE (defs₀ (F := F)) Variants.none c none) E (cc0__gate_kernel i arg1 harg1 arg2 harg2 arg3 harg3) K := by
    intro E K
    simp only [cc0__gate_kernel_eq_skeleton]; unfold cc0__gate_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    rw [load_x arg1 harg1 x0, load_w arg2 harg2 x1]
    iexact H2

/-! ## The proof data: the inputs named, the resident result constrained point by point -/

/-- Each window's current staging memref at point `t`, as the pipeline passes it to the body, and its wholeness. -/
abbrev bufX (t : Fin cfg0.N) : Memref sig .tc .vmem S512x4096 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S64x4096 .f32 := win0_1.stage (cfg0.slots t 1)
abbrev bufW_whole (t : Fin cfg0.N) : (bufW t).IsWhole := hstage0_1 ((cfg0.slots t 1).cast nbuf0_1)
abbrev bufO (t : Fin cfg0.N) : Memref sig .tc .vmem S32768x64 .f32 := win0_2.stage (cfg0.slots t 2)
abbrev bufO_whole (t : Fin cfg0.N) : (bufO t).IsWhole := hstage0_2 ((cfg0.slots t 2).cast nbuf0_2)

/-- The exact part of the proof data: the arrays as the region finds them; after the body each input's buffer still at its
    block. The entry for the result window is a placeholder, never read: that window's contents are constrained by the
    relation `rowsStep` below instead of being named. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- HOW ONE POINT CHANGES THE RESIDENT RESULT BUFFER. Given the contents `Y` handed to the body at point `t`, the contents
    `X` it leaves agree with the product of the point's block of `x` with the gate matrix on rows
    `[512·t, 512·t + 512)` — entry `(512·t + a, b)` is the product's entry `(a, b)` — and with `Y` on every other row. -/
def rowsStep (c : Dev nD) (t : Fin cfg0.N) (Y X : Vec F S32768x64 .f32) : Prop :=
  (∀ (y : S32768x64.Idx) (x : S512x64.Idx), (y 0).val = 512 * t.val + (x 0).val → (y 1).val = (x 1).val →
      X y = k0_pay1 (iblk m c 0 t) (iblk m c 1 t) x)
  ∧ ∀ y : S32768x64.Idx, ((y 0).val < 512 * t.val ∨ 512 * t.val + 512 ≤ (y 0).val) → X y = Y y

/-- Which windows are constrained by a relation of their own: the result window, by `rowsStep`. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => some (rowsStep m c)

/-- The proof data of the pipeline on core `c`: the exact data read relationally, the result window's relation `rowsStep`. -/
def rdat (c : Dev nD) : RDat τ (Elt F) Unit ℕ (UR sig nD τ) ℕ cfg0 c := (dats m c).toR.override (ovr m c)

/-- The row offset of the body's store at point `t` is `512·t`, the column offset zero: decided over the grid. -/
theorem store_offsets : ∀ t : Fin cfg0.N, k0_off1 (grid0.coords t) = ![512 * t.val, 0] :=
  (by decide +kernel : ∀ t : Fin grid0.N, k0_off1 (grid0.coords t) = ![512 * t.val, 0])

/-- The one piece written over contents `Y` through the result's staging memref is a `rowsStep` from `Y`: an index in the
    piece's rows reads the payload at its position within them, any other row reads `Y`. -/
theorem rowsStep_of_store (c : Dev nD) (t : Fin cfg0.N) (Y : Vec F S32768x64 .f32) :
    rowsStep m c t Y ((bufO t).view.read (Elt F) ((bufO t).view.writes (Elt F) ((bufO_whole t).unread Y)
      [storePiece (grid0.coords t) (iblk m c 0 t) (iblk m c 1 t)])) := by
  refine ⟨fun y x h0 h1 => ?_, fun y h => ?_⟩
  · exact View.read_writes_cons_rows_of_mem (bufO t).view _ (k0_off1_inb (grid0.coords t)) _ [] y x (store_offsets t) h0 h1
  · rw [View.read_writes_cons_rows_of_not_mem (bufO t).view _ (k0_off1_inb (grid0.coords t)) _ [] y (store_offsets t) rfl h]
    exact congrFun ((bufO_whole t).read_unread Y) y

/-- What the relational data ask of an input window after the body: its buffer still at its block. -/
theorem after_x (c : Dev nD) (t : Fin cfg0.N) (Y X : Vec F S512x4096 .f32) : (rdat m c).after 0 t Y X ↔ X = iblk m c 0 t := Iff.rfl
theorem after_w (c : Dev nD) (t : Fin cfg0.N) (Y X : Vec F S64x4096 .f32) : (rdat m c).after 1 t Y X ↔ X = iblk m c 1 t := Iff.rfl
/-- What they ask of the result window: a `rowsStep`. -/
theorem after_o (c : Dev nD) (t : Fin cfg0.N) (Y X : Vec F S32768x64 .f32) : (rdat m c).after 2 t Y X ↔ rowsStep m c t Y X := Iff.rfl

/-! ## The body obligation -/

/-- The body at point `t`, handed the inputs' buffers at their blocks and the result's at any contents `y2`: it returns the
    inputs' as they were and the result's one `rowsStep` on; the invariant passes through unread, the core owes nothing. -/
theorem sound_body (c : Dev nD) (t : Fin cfg0.N) (y0 : Vec F S512x4096 .f32) (y1 : Vec F S64x4096 .f32) (y2 : Vec F S32768x64 .f32)
    (h0 : y0 = iblk m c 0 t) (h1 : y1 = iblk m c 1 t) :
    iprop((rdat m c).Φ t.castSucc ∗ (rdat m c).owesAt () t.castSucc
        ∗ owns (c : Thread nD τ) (bufX t) fullShare y0
        ∗ owns (c : Thread nD τ) (bufW t) fullShare y1
        ∗ owns (c : Thread nD τ) (bufO t) fullShare y2)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t y0 X⌝ ∗ owns (c : Thread nD τ) (bufX t) fullShare X)
            ∗ (∃ X, ⌜(rdat m c).after 1 t y1 X⌝ ∗ owns (c : Thread nD τ) (bufW t) fullShare X)
            ∗ (∃ X, ⌜(rdat m c).after 2 t y2 X⌝ ∗ owns (c : Thread nD τ) (bufO t) fullShare X))) := by
  subst h0; subst h1
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply ((bodyRun c (grid0.coords t) _ _ _ _ _ _ (iblk m c 0 t) (iblk m c 1 t) y2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (after_x m c t _ _).mpr rfl
    iexact H0
  isplitl [H1]
  · iexists _; isplitr; · ipureintro; exact (after_w m c t _ _).mpr rfl
    iexact H1
  iexists _; isplitr; · ipureintro; exact (after_o m c t _ _).mpr (rowsStep_of_store m c t y2)
  unfold owns; iexists _; isplitr; · ipureintro; rfl
  iexact H2

/-- The relational body obligation, at every point: an input's buffer is found at its block (it is not overridden, so what
    it may hold is what the exact data say), the result's at whatever the points before left. -/
theorem body_obligation (c : Dev nD) : (rdat (F := F) m c).BodyObligation (defs₀ (F := F)) Variants.none () Set.univ := by
  intro t Y hY
  have h0 : Y 0 = iblk m c 0 t := by
    obtain ⟨d, hd⟩ := (dats m c).toR_finds 0 t (Y 0) (((dats m c).toR.override_finds (ovr := ovr m c) (w := 0) rfl t (Y 0)).mp (hY 0))
    exact hd.trans (before0_0_of m (dats m c) rfl (fun _ => rfl) t d)
  have h1 : Y 1 = iblk m c 1 t := by
    obtain ⟨d, hd⟩ := (dats m c).toR_finds 1 t (Y 1) (((dats m c).toR.override_finds (ovr := ovr m c) (w := 1) rfl t (Y 1)).mp (hY 1))
    exact hd.trans (before0_1_of m (dats m c) rfl (fun _ => rfl) t d)
  rw [bigSep_W0, bigSep_W0]
  exact sound_body m c t (Y 0) (Y 1) (Y 2) h0 h1

/-! ## The run and the frame -/

set_option backward.isDefEq.respectTransparency.types false in
/-- Every weakly fair execution of @main terminates, and in every final state each array of the pipeline holds contents
    the relational data allow after all write-backs, every other unscoped buffer its region-entry contents. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: the run terminates without a fault and the two argument arrays end as launched (an input array is never
    written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Eq.mp (congrFun ((rdat m c).ArrAt_in 0 rfl _) _) ((h c).1 0)).trans (V_main_arg0 m c),
      (Eq.mp (congrFun ((rdat m c).ArrAt_in 1 rfl _) _) ((h c).1 1)).trans (V_main_arg1 m c)⟩) (run_main m ρ)

end Cert.Kernel.Rows

end
-- ==== Proof.IdealRows.lean ====
/-
  ONE STEP OF THE KERNEL ON THE RESIDENT RESULT BUFFER, for any reading of the floats. At grid coordinate `i` the body
  loads the `[512, 4096]` block of `x` and the whole `[64, 4096]` gate matrix, multiplies them on the matrix unit
  contracting the model axis, and stores the `[512, 64]` product into rows `[512·i, 512·i + 512)` of the `[32768, 64]`
  result buffer; no other row is touched. The buffer is thus only partly overwritten at each point, and what it holds
  after a point depends on what it held before: the proof data constrain the result window by a RELATION between the
  contents found and the contents left (`rowsStep`), name the two input windows exactly (each still at its block), and
  the pipeline's run is taken for data of that form. Read off the run here: the frame — the argument arrays are never
  written back, so they end as launched.
-/
import proofs.«119178_g21586505629958_cont_sun_c4_254_20_alg».proof.Proof.Gen.KernelIdeal.Frame
import proofs.«119178_g21586505629958_cont_sun_c4_254_20_alg».proof.Proof.Gen.KernelIdeal.Skeleton
import Idealize.ShloMosaic.Lib.WritesUnit
import Idealize.ShloMosaic.Lib.WholeRead
import Idealize.ShloMosaic.Lib.Pipeline.Value

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a load of a whole block are zero on both axes. -/
theorem zero_offsets : (![0, 0] : Fin 2 → ℕ) = fun _ => 0 := by
  funext a; match a with
  | ⟨0, _⟩ => rfl
  | ⟨1, _⟩ => rfl

/-- A load of the whole first staging buffer, held at the raw contents that read `x0`, reads `x0`. -/
theorem load_x (arg1 : Memref sig .tc .vmem S512x4096 .f32) (harg1 : arg1.IsWhole) (x0 : Vec F S512x4096 .f32) :
    View.readAt (Elt F) arg1.view (Rect.unit (s := S512x4096) ![0, 0] S512x4096.size inb_S512x4096_S512x4096_0_0).toLoadRect (harg1.unread x0) = x0 := by
  rw [View.readAt_eq_ld, harg1.read_unread, View.ld_unit_zero (S := S512x4096) zero_offsets]

/-- A load of the whole second staging buffer, held at the raw contents that read `x1`, reads `x1`. -/
theorem load_w (arg2 : Memref sig .tc .vmem S64x4096 .f32) (harg2 : arg2.IsWhole) (x1 : Vec F S64x4096 .f32) :
    View.readAt (Elt F) arg2.view (Rect.unit (s := S64x4096) ![0, 0] S64x4096.size inb_S64x4096_S64x4096_0_0).toLoadRect (harg2.unread x1) = x1 := by
  rw [View.readAt_eq_ld, harg2.read_unread, View.ld_unit_zero (S := S64x4096) zero_offsets]

/-- The one store of the body as a piece: rows `[512·i, 512·i + 512)` of the resident result buffer receive the
    product of the point's block of `x` with the whole gate matrix. -/
abbrev storePiece (i : grid0.Coords) (x0 : Vec F S512x4096 .f32) (x1 : Vec F S64x4096 .f32) : View.Piece (Elt F) S32768x64 .f32 :=
  ⟨Rect.unit (s := S32768x64) (k0_off1 i) S512x64.size (k0_off1_inb i), k0_pay1 x0 x1⟩

set_option maxHeartbeats 1000000 in
/-- The body on whole staging memrefs: the two inputs at their contents and the result buffer at contents `y` run to
    the inputs as they were and the result buffer at `y` with the one piece written over it. -/
theorem bodyRun (c : Dev nD) (i : grid0.Coords) (arg1 : Memref sig .tc .vmem S512x4096 .f32) (harg1 : arg1.IsWhole)
    (arg2 : Memref sig .tc .vmem S64x4096 .f32) (harg2 : arg2.IsWhole) (arg3 : Memref sig .tc .vmem S32768x64 .f32) (harg3 : arg3.IsWhole)
    (x0 : Vec F S512x4096 .f32) (x1 : Vec F S64x4096 .f32) (y : Vec F S32768x64 .f32) :
      ∀ (E : Set ℕ) (K : PUnit → sProp 𝕄),
        iprop(owns (c : Thread nD τ) arg1 fullShare x0 ∗ owns (c : Thread nD τ) arg2 fullShare x1 ∗ owns (c : Thread nD τ) arg3 fullShare y
            ∗ (iprop(owns (c : Thread nD τ) arg1 fullShare x0 ∗ owns (c : Thread nD τ) arg2 fullShare x1
                ∗ (arg3.view.loc (c : Thread nD τ) ↦[arg3.view.set]{fullShare} arg3.view.writes (Elt F) (harg3.unread y) [storePiece i x0 x1])) -∗ K ⟨⟩))
          ⊢ wp frame (wpE (defs₀ (F := F)) Variants.none c none) E (cc0__gate_kernel i arg1 harg1 arg2 harg2 arg3 harg3) K := by
    intro E K
    simp only [cc0__gate_kernel_eq_skeleton]; unfold cc0__gate_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    rw [load_x arg1 harg1 x0, load_w arg2 harg2 x1]
    iexact H2

/-! ## The proof data: the inputs named, the resident result constrained point by point -/

/-- Each window's current staging memref at point `t`, as the pipeline passes it to the body, and its wholeness. -/
abbrev bufX (t : Fin cfg0.N) : Memref sig .tc .vmem S512x4096 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S64x4096 .f32 := win0_1.stage (cfg0.slots t 1)
abbrev bufW_whole (t : Fin cfg0.N) : (bufW t).IsWhole := hstage0_1 ((cfg0.slots t 1).cast nbuf0_1)
abbrev bufO (t : Fin cfg0.N) : Memref sig .tc .vmem S32768x64 .f32 := win0_2.stage (cfg0.slots t 2)
abbrev bufO_whole (t : Fin cfg0.N) : (bufO t).IsWhole := hstage0_2 ((cfg0.slots t 2).cast nbuf0_2)

/-- The exact part of the proof data: the arrays as the region finds them; after the body each input's buffer still at its
    block. The entry for the result window is a placeholder, never read: that window's contents are constrained by the
    relation `rowsStep` below instead of being named. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- HOW ONE POINT CHANGES THE RESIDENT RESULT BUFFER. Given the contents `Y` handed to the body at point `t`, the contents
    `X` it leaves agree with the product of the point's block of `x` with the gate matrix on rows
    `[512·t, 512·t + 512)` — entry `(512·t + a, b)` is the product's entry `(a, b)` — and with `Y` on every other row. -/
def rowsStep (c : Dev nD) (t : Fin cfg0.N) (Y X : Vec F S32768x64 .f32) : Prop :=
  (∀ (y : S32768x64.Idx) (x : S512x64.Idx), (y 0).val = 512 * t.val + (x 0).val → (y 1).val = (x 1).val →
      X y = k0_pay1 (iblk m c 0 t) (iblk m c 1 t) x)
  ∧ ∀ y : S32768x64.Idx, ((y 0).val < 512 * t.val ∨ 512 * t.val + 512 ≤ (y 0).val) → X y = Y y

/-- Which windows are constrained by a relation of their own: the result window, by `rowsStep`. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => some (rowsStep m c)

/-- The proof data of the pipeline on core `c`: the exact data read relationally, the result window's relation `rowsStep`. -/
def rdat (c : Dev nD) : RDat τ (Elt F) Unit ℕ (UR sig nD τ) ℕ cfg0 c := (dats m c).toR.override (ovr m c)

/-- The row offset of the body's store at point `t` is `512·t`, the column offset zero: decided over the grid. -/
theorem store_offsets : ∀ t : Fin cfg0.N, k0_off1 (grid0.coords t) = ![512 * t.val, 0] :=
  (by decide +kernel : ∀ t : Fin grid0.N, k0_off1 (grid0.coords t) = ![512 * t.val, 0])

/-- The one piece written over contents `Y` through the result's staging memref is a `rowsStep` from `Y`: an index in the
    piece's rows reads the payload at its position within them, any other row reads `Y`. -/
theorem rowsStep_of_store (c : Dev nD) (t : Fin cfg0.N) (Y : Vec F S32768x64 .f32) :
    rowsStep m c t Y ((bufO t).view.read (Elt F) ((bufO t).view.writes (Elt F) ((bufO_whole t).unread Y)
      [storePiece (grid0.coords t) (iblk m c 0 t) (iblk m c 1 t)])) := by
  refine ⟨fun y x h0 h1 => ?_, fun y h => ?_⟩
  · exact View.read_writes_cons_rows_of_mem (bufO t).view _ (k0_off1_inb (grid0.coords t)) _ [] y x (store_offsets t) h0 h1
  · rw [View.read_writes_cons_rows_of_not_mem (bufO t).view _ (k0_off1_inb (grid0.coords t)) _ [] y (store_offsets t) rfl h]
    exact congrFun ((bufO_whole t).read_unread Y) y

/-- What the relational data ask of an input window after the body: its buffer still at its block. -/
theorem after_x (c : Dev nD) (t : Fin cfg0.N) (Y X : Vec F S512x4096 .f32) : (rdat m c).after 0 t Y X ↔ X = iblk m c 0 t := Iff.rfl
theorem after_w (c : Dev nD) (t : Fin cfg0.N) (Y X : Vec F S64x4096 .f32) : (rdat m c).after 1 t Y X ↔ X = iblk m c 1 t := Iff.rfl
/-- What they ask of the result window: a `rowsStep`. -/
theorem after_o (c : Dev nD) (t : Fin cfg0.N) (Y X : Vec F S32768x64 .f32) : (rdat m c).after 2 t Y X ↔ rowsStep m c t Y X := Iff.rfl

/-! ## The body obligation -/

/-- The body at point `t`, handed the inputs' buffers at their blocks and the result's at any contents `y2`: it returns the
    inputs' as they were and the result's one `rowsStep` on; the invariant passes through unread, the core owes nothing. -/
theorem sound_body (c : Dev nD) (t : Fin cfg0.N) (y0 : Vec F S512x4096 .f32) (y1 : Vec F S64x4096 .f32) (y2 : Vec F S32768x64 .f32)
    (h0 : y0 = iblk m c 0 t) (h1 : y1 = iblk m c 1 t) :
    iprop((rdat m c).Φ t.castSucc ∗ (rdat m c).owesAt () t.castSucc
        ∗ owns (c : Thread nD τ) (bufX t) fullShare y0
        ∗ owns (c : Thread nD τ) (bufW t) fullShare y1
        ∗ owns (c : Thread nD τ) (bufO t) fullShare y2)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t y0 X⌝ ∗ owns (c : Thread nD τ) (bufX t) fullShare X)
            ∗ (∃ X, ⌜(rdat m c).after 1 t y1 X⌝ ∗ owns (c : Thread nD τ) (bufW t) fullShare X)
            ∗ (∃ X, ⌜(rdat m c).after 2 t y2 X⌝ ∗ owns (c : Thread nD τ) (bufO t) fullShare X))) := by
  subst h0; subst h1
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply ((bodyRun c (grid0.coords t) _ _ _ _ _ _ (iblk m c 0 t) (iblk m c 1 t) y2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (after_x m c t _ _).mpr rfl
    iexact H0
  isplitl [H1]
  · iexists _; isplitr; · ipureintro; exact (after_w m c t _ _).mpr rfl
    iexact H1
  iexists _; isplitr; · ipureintro; exact (after_o m c t _ _).mpr (rowsStep_of_store m c t y2)
  unfold owns; iexists _; isplitr; · ipureintro; rfl
  iexact H2

/-- The relational body obligation, at every point: an input's buffer is found at its block (it is not overridden, so what
    it may hold is what the exact data say), the result's at whatever the points before left. -/
theorem body_obligation (c : Dev nD) : (rdat (F := F) m c).BodyObligation (defs₀ (F := F)) Variants.none () Set.univ := by
  intro t Y hY
  have h0 : Y 0 = iblk m c 0 t := by
    obtain ⟨d, hd⟩ := (dats m c).toR_finds 0 t (Y 0) (((dats m c).toR.override_finds (ovr := ovr m c) (w := 0) rfl t (Y 0)).mp (hY 0))
    exact hd.trans (before0_0_of m (dats m c) rfl (fun _ => rfl) t d)
  have h1 : Y 1 = iblk m c 1 t := by
    obtain ⟨d, hd⟩ := (dats m c).toR_finds 1 t (Y 1) (((dats m c).toR.override_finds (ovr := ovr m c) (w := 1) rfl t (Y 1)).mp (hY 1))
    exact hd.trans (before0_1_of m (dats m c) rfl (fun _ => rfl) t d)
  rw [bigSep_W0, bigSep_W0]
  exact sound_body m c t (Y 0) (Y 1) (Y 2) h0 h1

/-! ## The run and the frame -/

set_option backward.isDefEq.respectTransparency.types false in
/-- Every weakly fair execution of @main terminates, and in every final state each array of the pipeline holds contents
    the relational data allow after all write-backs, every other unscoped buffer its region-entry contents. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: the run terminates without a fault and the two argument arrays end as launched (an input array is never
    written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Eq.mp (congrFun ((rdat m c).ArrAt_in 0 rfl _) _) ((h c).1 0)).trans (V_main_arg0 m c),
      (Eq.mp (congrFun ((rdat m c).ArrAt_in 1 rfl _) _) ((h c).1 1)).trans (V_main_arg1 m c)⟩) (run_main m ρ)

end Cert.KernelIdeal.Rows

end
-- ==== Proof.Logits.lean ====
/-
  THE GATE LOGITS. For activations `x : [32768, 4096]` and a gate matrix `W : [64, 4096]` (one row per expert), the
  logit of token `r` for expert `e` is the inner product of row `r` of `x` with row `e` of `W`,
  `∑ₖ x[r, k] · W[e, k]`, taken on the extended reals. Both programs compute exactly this sum, term by term and in
  the same order of the contracted coordinate `k`, so no law of the extended reals is needed to join them.
-/
import Idealize.ShloMosaic.PureOps.Ideal
import Idealize.ShloMosaic.Lib.ValueIdx

noncomputable section

open scoped BigOperators

namespace Cert.Gate

open Idealize.ShloMosaic Idealize.ShloMosaic.ValueIdx

/-- Entry `(r, e)` of the gate logits: `∑ₖ x[r, k] · W[e, k]`. -/
def logits (x : (⟨2, ![32768, 4096]⟩ : Shape).Idx → EReal) (W : (⟨2, ![64, 4096]⟩ : Shape).Idx → EReal) :
    (⟨2, ![32768, 64]⟩ : Shape).Idx → EReal :=
  fun y => ∑ k : Fin 4096, x (ix2 (⟨(y 0).val, idx2_lt0 y⟩ : Fin 32768) k) * W (ix2 (⟨(y 1).val, idx2_lt1 y⟩ : Fin 64) k)

end Cert.Gate

end
-- ==== Proof.IdealValue.lean ====
/-
  WHAT THE KERNEL'S RESULT ARRAY HOLDS AFTER THE RUN, at the ideal values. The result's block is the whole
  `[32768, 64]` array, resident in one staging buffer for all 64 points and written back once, after the last. Point
  `t` stores rows `[512·t, 512·t + 512)`: the product of rows `[512·t, 512·t + 512)` of `x` (its block at `t`) with the
  whole gate matrix, contracted over the model axis. By induction on the point, after point `t` every row below
  `512·(t + 1)` holds the gate logits — a row stored at an earlier point is left as found by every later one —, so the
  buffer written back after point 63 holds the logits on all 32768 rows.
-/
import proofs.«119178_g21586505629958_cont_sun_c4_254_20_alg».proof.Proof.IdealRows
import proofs.«119178_g21586505629958_cont_sun_c4_254_20_alg».proof.Proof.Logits
import Idealize.ShloMosaic.PureOps.Ideal.Laws
import Idealize.ShloMosaic.Lib.ValueIdx

set_option maxRecDepth 16384

noncomputable section

open scoped BigOperators

namespace Cert.KernelIdeal.Rows

open Idealize.ShloMosaic Idealize.ShloMosaic.TcCoe Idealize.ShloMosaic.ValueIdx
open Idealize.SL Idealize.SL.Sem
open Idealize.ShloMosaic.Pipeline (Dat RDat Cfg Window)
open Cert.KernelIdeal Cert.KernelIdeal.Gen

variable (m : (ℓ : Loc nD τ sig) → Buf (Elt Ideal) ℓ) (ρ : Dev nD → PrngReg)

/-! ## The product on the matrix unit, read at an index -/

/-- The body's product: both operands contracted on their second axis, the first axes kept. -/
abbrev gateDot : DotDims S512x4096 S64x4096 S512x64 := dot_S512x4096_S64x4096_S512x64_1_1_0_0_n_n

theorem lhs_row (i : S512x64.Idx) (q : gateDot.contr.Idx) : (gateDot.lhsIdx i q 0).val = (i 0).val := by
  unfold DotDims.lhsIdx
  rw [dif_neg (show ¬(0 : Fin S512x4096.rank) ∈ gateDot.lhsBatch by decide), dif_pos (show (0 : Fin S512x4096.rank) ∈ gateDot.lhsNonContracting by decide)]
  rfl
theorem lhs_k (i : S512x64.Idx) (q : gateDot.contr.Idx) : (gateDot.lhsIdx i q 1).val = (q ⟨0, by decide⟩).val :=
  gateDot.lhsIdx_val_of_single rfl i q
theorem rhs_row (i : S512x64.Idx) (q : gateDot.contr.Idx) : (gateDot.rhsIdx i q 0).val = (i 1).val := by
  unfold DotDims.rhsIdx
  rw [dif_neg (show ¬(0 : Fin S64x4096.rank) ∈ gateDot.rhsBatch by decide), dif_pos (show (0 : Fin S64x4096.rank) ∈ gateDot.rhsNonContracting by decide)]
  rfl
theorem rhs_k (i : S512x64.Idx) (q : gateDot.contr.Idx) : (gateDot.rhsIdx i q 1).val = (q ⟨0, by decide⟩).val :=
  gateDot.rhsIdx_val_of_single rfl i q

/-- Entry `(a, b)` of the body's product of a `[512, 4096]` block with the `[64, 4096]` gate matrix, both contracted on
    their second axis, into the zero accumulator: `∑ₖ x0[a, k] · x1[b, k]`. -/
theorem product_apply (x0 : Vec Ideal S512x4096 .f32) (x1 : Vec Ideal S64x4096 .f32) (a : Fin 512) (b : Fin 64) :
    k0_pay1 (F := Ideal) x0 x1 (ix2 a b) = ∑ k : Fin 4096, x0 (ix2 a k) * x1 (ix2 b k) := by
  unfold k0_pay1
  show FloatOps.matmul (F := Ideal) gateDot none x0 x1 (constant (F := Ideal) S512x64 .f32 0x00000000#32) (ix2 a b) = _
  rw [Ideal.matmul_constant_zero_apply, ← Equiv.sum_comp (contrEquiv1 gateDot 4096 rfl rfl).symm]
  refine Finset.sum_congr rfl fun k _ => ?_
  have hk := contrEquiv1_symm_val gateDot 4096 rfl rfl k
  have el : gateDot.lhsIdx (ix2 a b) ((contrEquiv1 gateDot 4096 rfl rfl).symm k) = ix2 a k := funext fun ax => Fin.ext (by
    match ax with
    | ⟨0, _⟩ => exact lhs_row _ _
    | ⟨1, _⟩ => exact (lhs_k _ _).trans hk)
  have er : gateDot.rhsIdx (ix2 a b) ((contrEquiv1 gateDot 4096 rfl rfl).symm k) = ix2 b k := funext fun ax => Fin.ext (by
    match ax with
    | ⟨0, _⟩ => exact rhs_row _ _
    | ⟨1, _⟩ => exact (rhs_k _ _).trans hk)
  rw [el, er]

/-! ## The input blocks, read at an index -/

/-- The block index of `x` at point `t` is `(t, 0)`, that of the gate matrix `(0, 0)`, that of the result `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Entry `(a, k)` of the block of `x` at point `t` is entry `(512·t + a, k)` of `x`. -/
theorem blockX_apply (c : Dev nD) (t : Fin cfg0.N) (a : Fin 512) (k : Fin 4096) (r : Fin 32768) (hr : r.val = 512 * t.val + a.val) :
    iblk m c 0 t (ix2 a k) = m ((c : Thread nD τ).loc main_arg0) (ix2 r k) := by
  show V m c main_arg0 (((cfg0.win 0).blk t).view.emb (ix2 a k)) = V m c main_arg0 (ix2 r k)
  refine congrArg _ (funext fun ax => Fin.ext ?_)
  obtain ⟨e0, e1, -⟩ := block_indices t
  match ax with
  | ⟨0, _⟩ => show win0_0.index t (0 : Fin 2) * 512 + 1 * a.val = r.val; omega
  | ⟨1, _⟩ => show win0_0.index t (1 : Fin 2) * 4096 + 1 * k.val = k.val; omega

/-- The block of the gate matrix at every point is the whole matrix. -/
theorem blockW_apply (c : Dev nD) (t : Fin cfg0.N) (b : Fin 64) (k : Fin 4096) :
    iblk m c 1 t (ix2 b k) = m ((c : Thread nD τ).loc main_arg1) (ix2 b k) := by
  show V m c main_arg1 (((cfg0.win 1).blk t).view.emb (ix2 b k)) = V m c main_arg1 (ix2 b k)
  refine congrArg _ (funext fun ax => Fin.ext ?_)
  obtain ⟨-, -, e2, e3, -⟩ := block_indices t
  match ax with
  | ⟨0, _⟩ => show win0_1.index t (0 : Fin 2) * 64 + 1 * b.val = b.val; omega
  | ⟨1, _⟩ => show win0_1.index t (1 : Fin 2) * 4096 + 1 * k.val = k.val; omega

/-! ## Row by row: the invariant of the resident buffer -/

/-- The gate logits of the argument arrays as launched on core `c`. -/
abbrev target (c : Dev nD) : S32768x64.Idx → EReal :=
  Cert.Gate.logits (m ((c : Thread nD τ).loc main_arg0)) (m ((c : Thread nD τ).loc main_arg1))

/-- The first `512·n` rows of `X` hold the gate logits. -/
def RowsDone (c : Dev nD) (n : ℕ) (X : Vec Ideal S32768x64 .f32) : Prop :=
  ∀ y : S32768x64.Idx, (y 0).val < 512 * n → X y = target m c y

/-- One point's change of the buffer extends the finished rows by the point's 512: a row below `512·t` is left as found,
    a row of `[512·t, 512·t + 512)` receives the product's row, which is the logits' (the block of `x` at `t` starts at
    row `512·t`, the gate matrix's block is the matrix). -/
theorem rowsDone_step (c : Dev nD) (t : Fin cfg0.N) (Y X : Vec Ideal S32768x64 .f32) (hstep : rowsStep m c t Y X)
    (hY : RowsDone m c t.val Y) : RowsDone m c (t.val + 1) X := by
  intro y hy
  by_cases h : (y 0).val < 512 * t.val
  · rw [hstep.2 y (Or.inl h)]; exact hY y h
  · have h0 : (y 0).val < 32768 := idx2_lt0 y
    have h1 : (y 1).val < 64 := idx2_lt1 y
    rw [hstep.1 y (ix2 (⟨(y 0).val - 512 * t.val, by omega⟩ : Fin 512) (⟨(y 1).val, h1⟩ : Fin 64)) (by show (y 0).val = 512 * t.val + ((y 0).val - 512 * t.val); omega) rfl]
    rw [product_apply]
    show _ = ∑ k : Fin 4096, _
    refine Finset.sum_congr rfl fun k _ => ?_
    rw [blockX_apply m c t _ k (⟨(y 0).val, h0⟩ : Fin 32768) (by show (y 0).val = 512 * t.val + ((y 0).val - 512 * t.val); omega), blockW_apply m c t _ k]

/-- The grid has 64 points. -/
theorem point_lt (t : Fin cfg0.N) : t.val < 64 := lt_of_lt_of_eq t.isLt (show cfg0.N = 64 from N_0)

/-- The result window is never fetched. -/
theorem result_not_fetched : ∀ t : Fin cfg0.N, (cfg0.win 2).fetch t = false :=
  (by decide +kernel : ∀ t : Fin grid0.N, win0_2.fetch t = false)

/-- Whatever the body may find in the result's buffer at point `t` has its first `512·t` rows finished: nothing is asked at
    the first point; later, the buffer is as the point before left it (no point but the last writes it back). -/
theorem rowsDone_of_finds (c : Dev nD) : ∀ (n : ℕ) (t : Fin cfg0.N), t.val = n → ∀ Y : Vec Ideal S32768x64 .f32,
    (rdat m c).Finds 2 t Y → RowsDone m c n Y
  | 0, t, ht, Y, _ => fun y hy => absurd hy (by omega)
  | n + 1, t, ht, Y, hF => by
    have hlt := point_lt t
    rcases ((rdat m c).finds_of_pos (result_not_fetched t) (by omega) Y).mp hF with hfl | ⟨Y', hY', hstep⟩
    · exfalso
      have := (flush0_2 ⟨t.val - 1, Nat.lt_of_le_of_lt (Nat.sub_le _ _) t.isLt⟩).mp hfl
      have e : (⟨t.val - 1, Nat.lt_of_le_of_lt (Nat.sub_le _ _) t.isLt⟩ : Fin cfg0.N).val = t.val - 1 := rfl
      rw [e] at this
      omega
    · have ih := rowsDone_of_finds c n ⟨t.val - 1, Nat.lt_of_le_of_lt (Nat.sub_le _ _) t.isLt⟩ (by show t.val - 1 = n; omega) Y' hY'
      have hs := rowsDone_step m c ⟨t.val - 1, Nat.lt_of_le_of_lt (Nat.sub_le _ _) t.isLt⟩ Y' Y ((after_o m c _ Y' Y).mp hstep)
        (by show RowsDone m c (t.val - 1) Y'; rw [show t.val - 1 = n by omega]; exact ih)
      have e : (⟨t.val - 1, Nat.lt_of_le_of_lt (Nat.sub_le _ _) t.isLt⟩ : Fin cfg0.N).val + 1 = n + 1 := by show t.val - 1 + 1 = n + 1; omega
      rw [e] at hs
      exact hs

/-- Whatever the body may leave there at point `t` has its first `512·(t + 1)` rows finished. -/
theorem rowsDone_of_leaves (c : Dev nD) (t : Fin cfg0.N) (X : Vec Ideal S32768x64 .f32) (h : (rdat m c).Leaves 2 t X) :
    RowsDone m c (t.val + 1) X := by
  obtain ⟨Y, hY, hstep⟩ := h
  exact rowsDone_step m c t Y X ((after_o m c t Y X).mp hstep) (rowsDone_of_finds m c t.val t rfl Y hY)

/-! ## The one write-back -/

/-- Before the last point's write-back the result array is as the region found it. -/
theorem arr_before_last (c : Dev nD) : ∀ n : ℕ, n ≤ 63 → (rdat m c).ArrAt 2 n = fun G => G = (rdat m c).A 2
  | 0, _ => rfl
  | n + 1, h => by
    have hn : n < cfg0.N := by rw [show cfg0.N = 64 from N_0]; omega
    refine ((rdat m c).ArrAt_succ 2 ⟨n, hn⟩).trans ?_
    rw [if_neg (fun hf => by
      have := (flush0_2 ⟨n, hn⟩).mp hf
      have e : (⟨n, hn⟩ : Fin cfg0.N).val = n := rfl
      rw [e] at this
      omega)]
    exact arr_before_last c n (by omega)

/-- Writing a whole-array block back over any contents leaves the block: the result's block index is `(0, 0)` and its
    extent the array's. -/
theorem write_back_apply (c : Dev nD) (u : Fin cfg0.N) (G₀ : Buf (Elt Ideal) ((cfg0.win 2).arr.view.loc (c.tc : Thread nD τ)))
    (X : Vec Ideal S32768x64 .f32) (i : S32768x64.Idx) :
    ((cfg0.win 2).blk u).view.write (Elt Ideal) G₀ ((cfg0.win 2).cut (cfg0.grid.coords u) X) Finset.univ i = X i := by
  obtain ⟨-, -, -, -, e4, e5⟩ := block_indices u
  have e : ((cfg0.win 2).blk u).view.emb i = i := funext fun ax => Fin.ext (by
    match ax with
    | ⟨0, _⟩ => show win0_2.index u (0 : Fin 2) * 32768 + 1 * (i 0).val = (i 0).val; omega
    | ⟨1, _⟩ => show win0_2.index u (1 : Fin 2) * 64 + 1 * (i 1).val = (i 1).val; omega)
  have key := View.write_emb_of_mem (v := ((cfg0.win 2).blk u).view) G₀ ((cfg0.win 2).cut (cfg0.grid.coords u) X) (Finset.mem_univ i)
  rw [e] at key
  exact key

/-- Whatever the result array may hold after all write-backs is the gate logits of the arguments. -/
theorem final_logits (c : Dev nD) (G : Buf (Elt Ideal) ((cfg0.win 2).arr.view.loc (c.tc : Thread nD τ)))
    (h : (rdat m c).ArrAt 2 cfg0.N G) : G = target m c := by
  have h' : (rdat m c).ArrAt 2 (63 + 1) G := (congrFun (congrArg ((rdat m c).ArrAt 2) (show cfg0.N = 63 + 1 from N_0)) G).mp h
  have h63 : (63 : ℕ) < cfg0.N := by rw [show cfg0.N = 64 from N_0]; omega
  have hs := (congrFun ((rdat m c).ArrAt_succ 2 ⟨63, h63⟩) G).mp h'
  rw [if_pos ((flush0_2 ⟨63, h63⟩).mpr rfl)] at hs
  obtain ⟨G₀, X, -, hX, rfl⟩ := hs
  funext i
  rw [write_back_apply c ⟨63, h63⟩ G₀ X i]
  exact rowsDone_of_leaves m c ⟨63, h63⟩ X hX i (by have := idx2_lt0 i; show (i 0).val < 512 * (63 + 1); omega)

/-! ## The run, read -/

/-- Every weakly fair execution of the idealized kernel terminates, the result array holding the gate logits of the
    arguments and the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨final_logits m c _ ((h c).1 2),
      (Eq.mp (congrFun ((rdat m c).ArrAt_in 0 rfl _) _) ((h c).1 0)).trans (V_main_arg0 m c),
      (Eq.mp (congrFun ((rdat m c).ArrAt_in 1 rfl _) _) ((h c).1 1)).trans (V_main_arg1 m c)⟩)
    (run_main (F := Ideal) m ρ)

end Cert.KernelIdeal.Rows

end
-- ==== Proof.RefLogits.lean ====
/-
  THE REFERENCE COMPUTES THE GATE LOGITS. jnp's `dot(x, W.T)` transposes the gate matrix and contracts the model axis:
  entry `(r, e)` is `∑ₖ x[r, k] · Wᵀ[k, e]`, and `Wᵀ[k, e] = W[e, k]`, so index by index it is the sum `Gate.logits`
  names.
-/
import proofs.«119178_g21586505629958_cont_sun_c4_254_20_alg».proof.Proof.Gen.ReferenceIdeal.Read
import proofs.«119178_g21586505629958_cont_sun_c4_254_20_alg».proof.Proof.Logits

noncomputable section

open scoped BigOperators

namespace Cert.ReferenceIdeal.RefValue

open Cert.ReferenceIdeal Cert.ReferenceIdeal.Gen Idealize.ShloMosaic Idealize.ShloMosaic.ValueIdx

/-- The reference's product against the transposed gate matrix is the gate logits. -/
theorem ref_logits (x0 : (⟨S32768x4096, .f32⟩ : BufTy).Contents (Elt Ideal)) (x1 : (⟨S64x4096, .f32⟩ : BufTy).Contents (Elt Ideal)) :
    Read.val_main_v1 (F := Ideal) x0 x1 = Cert.Gate.logits x0 x1 := by
  funext i
  rw [Read.val_main_v1_apply]
  unfold Cert.Gate.logits
  refine Finset.sum_congr rfl fun k _ => ?_
  rw [Read.val_main_v0_apply]
  have el : Read.lidx_main_v1 i k = ix2 (⟨(i 0).val, idx2_lt0 i⟩ : Fin 32768) k :=
    funext fun a => by match a with | ⟨0, _⟩ => rfl | ⟨1, _⟩ => rfl
  have er : Read.idx_main_v0 (Read.ridx_main_v1 i k) = ix2 (⟨(i 1).val, idx2_lt1 i⟩ : Fin 64) k :=
    funext fun a => by match a with | ⟨0, _⟩ => rfl | ⟨1, _⟩ => rfl
  rw [el, er]

end Cert.ReferenceIdeal.RefValue

end
-- ==== Proof.lean ====
/-
  THE GATE-LOGITS PROJECTION, KERNEL AGAINST REFERENCE. The kernel walks the 32768 tokens in 64 steps of 512: step `t`
  multiplies rows `[512·t, 512·t + 512)` of `x : [32768, 4096]` by the gate matrix `W : [64, 4096]`, contracting the model
  axis, and stores the `[512, 64]` product into rows `[512·t, 512·t + 512)` of the `[32768, 64]` result, which stays in one
  buffer for the whole call and is written out once after the last step. The reference is `x · Wᵀ`. On the extended
  reals both give entry `(r, e)` as `∑ₖ x[r, k] · W[e, k]` (`Gate.logits`), the same terms in the same order of `k`, so the
  two results are equal with no appeal to finiteness of the inputs.

  The kernel side: what one step does to the resident buffer is stated as a relation between the contents found and the
  contents left (`Rows.rowsStep`: the step's 512 rows replaced by the product, every other row kept), the body is shown
  to satisfy it at every step, and an induction on the step shows the first `512·(t + 1)` rows finished after step `t`
  (`Rows.rowsDone_of_leaves`); the single write-back then leaves the logits in the result array (`Rows.final_logits`).
  The same body argument, read at the machine's words, gives the word-level kernel's frame. The reference side is its
  operations read at an index (`RefValue.ref_logits`). The idealization rewrote nothing, so `preserves` is `True`.
-/
import proofs.«119178_g21586505629958_cont_sun_c4_254_20_alg».proof.Defs
import proofs.«119178_g21586505629958_cont_sun_c4_254_20_alg».proof.Proof.Gen.Kernel
import proofs.«119178_g21586505629958_cont_sun_c4_254_20_alg».proof.Proof.Gen.KernelIdeal
import proofs.«119178_g21586505629958_cont_sun_c4_254_20_alg».proof.Proof.Gen.ReferenceIdeal
import proofs.«119178_g21586505629958_cont_sun_c4_254_20_alg».proof.Proof.Gen.Pre_finite_inputs
import proofs.«119178_g21586505629958_cont_sun_c4_254_20_alg».proof.Proof.BitsRows
import proofs.«119178_g21586505629958_cont_sun_c4_254_20_alg».proof.Proof.IdealValue
import proofs.«119178_g21586505629958_cont_sun_c4_254_20_alg».proof.Proof.RefLogits
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Rows.frame m ρ

/-- So does the kernel read at the ideal values. -/
theorem frame_kernelIdeal : Cert.frame_KernelIdeal := fun m ρ _ => Cert.KernelIdeal.Rows.frame m ρ

/-- The reference is two host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on `x` and `W`, both programs end with the gate logits of `x` and `W` in their result. -/
theorem algebraic : Cert.algebraic_KernelIdeal_ReferenceIdeal := by
  intro m ρ m' ρ' _ hagree
  refine ⟨fun c => Cert.KernelIdeal.Rows.target m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_logits, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
